-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S4096x1000 : Shape := ⟨2, ![4096, 1000]⟩
abbrev S1000x64 : Shape := ⟨2, ![1000, 64]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S1000x64 : S_.BroadcastsInDim S1000x64 (![] : Fin 0 → Fin S1000x64.rank)
  reducesTo_S1000x64_S_d0_1 : S1000x64.ReducesTo [0, 1] S_

variable [Facts]

def fn_part1 {F : FTy → Type} [FloatOps F] (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  main_v18

def fn {F : FTy → Type} [FloatOps F] (main_arg0 : FVec F S16384x1000 .f32) (main_arg1 : FVec F S4096x1000 .f32) (main_arg2 : FVec F S1000x64 .f32) (main_arg3 : FVec F S1000x64 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_v13 main_v16
-- ==== Kernel.lean ====
abbrev S16384x1000 : Shape := ⟨2, ![16384, 1000]⟩
abbrev S4096x1000 : Shape := ⟨2, ![4096, 1000]⟩
abbrev S1000x64 : Shape := ⟨2, ![1000, 64]⟩
abbrev S1000x16384 : Shape := ⟨2, ![1000, 16384]⟩
abbrev S1000x4096 : Shape := ⟨2, ![1000, 4096]⟩
abbrev S64x1000 : Shape := ⟨2, ![64, 1000]⟩
abbrev S64x16384 : Shape := ⟨2, ![64, 16384]⟩
abbrev S64x4096 : Shape := ⟨2, ![64, 4096]⟩
abbrev S1000x1024 : Shape := ⟨2, ![1000, 1024]⟩
abbrev S1000x256 : Shape := ⟨2, ![1000, 256]⟩
abbrev S64x1024 : Shape := ⟨2, ![64, 1024]⟩
abbrev S64x256 : Shape := ⟨2, ![64, 256]⟩
abbrev S16384x64 : Shape := ⟨2, ![16384, 64]⟩
abbrev S4096x64 : Shape := ⟨2, ![4096, 64]⟩

abbrev nBuf : Space → Nat
  | .hbm => 12
  | .vmem => 10
  | .smem => 0
  | _ => 0

abbrev bufTy : (tb : Table) → Fin (tcTables nBuf tb) → BufTy
  | .hbm, ⟨0, _⟩ => ⟨S16384x1000, .f32⟩
  | .hbm, ⟨1, _⟩ => ⟨S4096x1000, .f32⟩
  | .hbm, ⟨2, _⟩ => ⟨S1000x64, .f32⟩
  | .hbm, ⟨3, _⟩ => ⟨S1000x64, .f32⟩
  | .hbm, ⟨4, _⟩ => ⟨S1000x16384, .f32⟩
  | .hbm, ⟨5, _⟩ => ⟨S1000x4096, .f32⟩
  | .hbm, ⟨6, _⟩ => ⟨S64x1000, .f32⟩
  | .hbm, ⟨7, _⟩ => ⟨S64x1000, .f32⟩
  | .hbm, ⟨8, _⟩ => ⟨S64x16384, .f32⟩
  | .hbm, ⟨9, _⟩ => ⟨S64x4096, .f32⟩
  | .hbm, ⟨10, _⟩ => ⟨S16384x64, .f32⟩
  | .hbm, ⟨11, _⟩ => ⟨S4096x64, .f32⟩
  | .local _ .vmem, ⟨0, _⟩ => ⟨S64x1000, .f32⟩
  | .local _ .vmem, ⟨1, _⟩ => ⟨S64x1000, .f32⟩
  | .local _ .vmem, ⟨2, _⟩ => ⟨S1000x1024, .f32⟩
  | .local _ .vmem, ⟨3, _⟩ => ⟨S1000x1024, .f32⟩
  | .local _ .vmem, ⟨4, _⟩ => ⟨S1000x256, .f32⟩
  | .local _ .vmem, ⟨5, _⟩ => ⟨S1000x256, .f32⟩
  | .local _ .vmem, ⟨6, _⟩ => ⟨S64x1024, .f32⟩
  | .local _ .vmem, ⟨7, _⟩ => ⟨S64x1024, .f32⟩
  | .local _ .vmem, ⟨8, _⟩ => ⟨S64x256, .f32⟩
  | .local _ .vmem, ⟨9, _⟩ => ⟨S64x256, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x1000_S1000x16384_1_0 : S16384x1000.Transposes [1, 0] S1000x16384
  transposes_S4096x1000_S1000x4096_1_0 : S4096x1000.Transposes [1, 0] S1000x4096
  transposes_S1000x64_S64x1000_1_0 : S1000x64.Transposes [1, 0] S64x1000
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S64x1024_S64x1024_0_0 : ∀ a, (![0, 0] : Fin 2 → Nat) a + S64x1024.size a ≤ S64x1024.size a
  h_S64x1024 : 0 < S64x1024.numel
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S64x256_S64x256_0_0 : ∀ a, (![0, 0] : Fin 2 → Nat) a + S64x256.size a ≤ S64x256.size a
  h_S64x256 : 0 < S64x256.numel
  transposes_S64x16384_S16384x64_1_0 : S64x16384.Transposes [1, 0] S16384x64
  transposes_S64x4096_S4096x64_1_0 : S64x4096.Transposes [1, 0] S4096x64
  dot_S64x1000_S1000x1024_S64x1024_1_0_0_1_n_n_wf : DotDims.WF S64x1000 S1000x1024 S64x1024 [1] [0] [0] [1] [] []
  dot_S64x1000_S1000x256_S64x256_1_0_0_1_n_n_wf : DotDims.WF S64x1000 S1000x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1000.size a ≤ S64x1000.size a
  hwx0_0 : ∀ i : grid0.Coords, EltTy.bits .f32 = 32 ∨ (Rect.block (s := S64x1000) S64x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1000.size a ≤ S64x1000.size a
  hwx0_1 : ∀ i : grid0.Coords, EltTy.bits .f32 = 32 ∨ (Rect.block (s := S64x1000) S64x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S1000x16384.size a
  hwx0_2 : ∀ i : grid0.Coords, EltTy.bits .f32 = 32 ∨ (Rect.block (s := S1000x16384) S1000x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S1000x4096.size a
  hwx0_3 : ∀ i : grid0.Coords, EltTy.bits .f32 = 32 ∨ (Rect.block (s := S1000x4096) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x16384.size a
  hwx0_4 : ∀ i : grid0.Coords, EltTy.bits .f32 = 32 ∨ (Rect.block (s := S64x16384) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x4096.size a
  hwx0_5 : ∀ i : grid0.Coords, EltTy.bits .f32 = 32 ∨ (Rect.block (s := S64x4096) S64x256.size (cc0_transform_5 i) (hinb0_5 i)).WholeWords (EltTy.packing .f32)

variable [Facts₀]

def dot_S64x1000_S1000x1024_S64x1024_1_0_0_1_n_n : DotDims S64x1000 S1000x1024 S64x1024 where
  lhsContracting := [1]
  rhsContracting := [0]
  lhsNonContracting := [0]
  rhsNonContracting := [1]
  lhsBatch := []
  rhsBatch := []
  wf := dot_S64x1000_S1000x1024_S64x1024_1_0_0_1_n_n_wf
def dot_S64x1000_S1000x256_S64x256_1_0_0_1_n_n : DotDims S64x1000 S1000x256 S64x256 where
  lhsContracting := [1]
  rhsContracting := [0]
  lhsNonContracting := [0]
  rhsNonContracting := [1]
  lhsBatch := []
  rhsBatch := []
  wf := dot_S64x1000_S1000x256_S64x256_1_0_0_1_n_n_wf

abbrev win0_0 : Pipeline.Window sig grid0 :=
  Pipeline.Window.ofSpec (Memref.whole main_v2) S64x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S64x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S4096x1000 : Shape := ⟨2, ![4096, 1000]⟩
abbrev S1000x64 : Shape := ⟨2, ![1000, 64]⟩
abbrev S16384x64 : Shape := ⟨2, ![16384, 64]⟩
abbrev S4096x64 : Shape := ⟨2, ![4096, 64]⟩

abbrev nBuf : Space → Nat
  | .hbm => 6
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S4096x1000, .f32⟩
  | .hbm, ⟨2, _⟩ => ⟨S1000x64, .f32⟩
  | .hbm, ⟨3, _⟩ => ⟨S1000x64, .f32⟩
  | .hbm, ⟨4, _⟩ => ⟨S16384x64, .f32⟩
  | .hbm, ⟨5, _⟩ => ⟨S4096x64, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  dot_S16384x1000_S1000x64_S16384x64_1_0_0_1_n_n_wf : DotDims.WF S16384x1000 S1000x64 S16384x64 [1] [0] [0] [1] [] []
  dot_S4096x1000_S1000x64_S4096x64_1_0_0_1_n_n_wf : DotDims.WF S4096x1000 S1000x64 S4096x64 [1] [0] [0] [1] [] []

variable [Facts₀]

def dot_S16384x1000_S1000x64_S16384x64_1_0_0_1_n_n : DotDims S16384x1000 S1000x64 S16384x64 where
  lhsContracting := [1]
  rhsContracting := [0]
  lhsNonContracting := [0]
  rhsNonContracting := [1]
  lhsBatch := []
  rhsBatch := []
  wf := dot_S16384x1000_S1000x64_S16384x64_1_0_0_1_n_n_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf

class Facts : Prop extends Facts₀ where

variable [Facts]
-- ==== Proof.TransposedProduct.lean ====
/-
  The mathematics of the two towers, free of any program.

  A feature matrix `x` ([n, 1000]) is multiplied by an embedding table `e` ([1000, 64]): entry (r, j) of the product is
  `∑ k, x (r, k) · e (k, j)` (`embed`).  The kernel forms the product the other way round: the transposed table
  ([64, 1000]) times the transposed features ([1000, n]), entry (j, r) being `∑ k, eᵀ (j, k) · xᵀ (k, r)` (`embedT`),
  and transposes the result back.  Entry by entry the two sums have the same terms with the two factors of each term
  exchanged, so they agree by commutativity of the product of extended reals alone (`transpose_embedT`): no
  distributivity, no cancelling, hence no finiteness of the entries is needed.
-/
import Idealize.ShloMosaic.Lib.ValueIdx
import Idealize.ShloMosaic.Lib.ValueLayout
import Idealize.ShloMosaic.PureOps.Ideal.Laws

noncomputable section

namespace Cert.Tower

open Idealize.ShloMosaic Idealize.ShloMosaic.ValueIdx

/-- The product of a feature matrix `x` ([n, 1000]) with an embedding table `e` ([1000, 64]): entry (r, j) is the sum
    over the 1000 features `k` of `x (r, k) · e (k, j)`. -/
def embed {n : ℕ} (x : (⟨2, ![n, 1000]⟩ : Shape).Idx → EReal) (e : (⟨2, ![1000, 64]⟩ : Shape).Idx → EReal) :
    (⟨2, ![n, 64]⟩ : Shape).Idx → EReal :=
  fun i => ∑ k : Fin 1000, x (ix2 (i 0) k) * e (ix2 k (i 1))

/-- The product of a transposed table `et` ([64, 1000]) with transposed features `xt` ([1000, n]): entry (j, r) is the
    sum over `k` of `et (j, k) · xt (k, r)`. -/
def embedT {n : ℕ} (et : (⟨2, ![64, 1000]⟩ : Shape).Idx → EReal) (xt : (⟨2, ![1000, n]⟩ : Shape).Idx → EReal) :
    (⟨2, ![64, n]⟩ : Shape).Idx → EReal :=
  fun i => ∑ k : Fin 1000, et (ix2 (i 0) k) * xt (ix2 k (i 1))

/-- `(eᵀ · xᵀ)ᵀ = x · e`, entry by entry: at (r, j) the left side is `∑ k, e (k, j) · x (r, k)`, the right side
    `∑ k, x (r, k) · e (k, j)`; each term is the other's with its factors exchanged. -/
theorem transpose_embedT {n : ℕ} (x : (⟨2, ![n, 1000]⟩ : Shape).Idx → EReal) (e : (⟨2, ![1000, 64]⟩ : Shape).Idx → EReal)
    (he : (⟨2, ![1000, 64]⟩ : Shape).Transposes [1, 0] ⟨2, ![64, 1000]⟩)
    (hx : (⟨2, ![n, 1000]⟩ : Shape).Transposes [1, 0] ⟨2, ![1000, n]⟩)
    (ho : (⟨2, ![64, n]⟩ : Shape).Transposes [1, 0] ⟨2, ![n, 64]⟩) :
    transpose ⟨2, ![n, 64]⟩ [1, 0]
        (embedT (transpose ⟨2, ![64, 1000]⟩ [1, 0] e he) (transpose ⟨2, ![1000, n]⟩ [1, 0] x hx)) ho
      = embed x e := by
  funext i
  obtain ⟨r, j, rfl⟩ : ∃ (r : Fin n) (j : Fin 64), i = ix2 r j := ⟨i 0, i 1, eq_ix2 i⟩
  rw [transpose_ix2_apply]
  unfold embedT embed
  refine Finset.sum_congr rfl fun k _ => ?_
  show transpose ⟨2, ![64, 1000]⟩ [1, 0] e he (ix2 j k) * transpose ⟨2, ![1000, n]⟩ [1, 0] x hx (ix2 k r)
    = x (ix2 r k) * e (ix2 k j)
  rw [transpose_ix2_apply, transpose_ix2_apply, mul_comm]

end Cert.Tower

end
-- ==== Proof.BlockProduct.lean ====
/-
  The arithmetic of the kernel body, read at an index at the ideal instance.

  At every grid point the body forms two products into zero accumulators: the transposed user table ([64, 1000]) times a
  block of 1024 columns of the transposed user features ([1000, 1024]), and the transposed item table times a block of 256
  columns of the transposed item features ([1000, 256]).  Each is, at entry (p, q), the sum over the 1000 features `k`
  of `e (p, k) · u (k, q)`.
-/
import proofs.«108948_g71116068487735_cont_9to1_m_1387_15_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The user tower block product (block width 1024) -/

/-- Operand coordinates of the block product at output entry `i` and contraction index `q`: the left operand is read at
    row `i 0`, -/
theorem lhsU_0 (i : S64x1024.Idx) (q : dot_S64x1000_S1000x1024_S64x1024_1_0_0_1_n_n.contr.Idx) :
    (dot_S64x1000_S1000x1024_S64x1024_1_0_0_1_n_n.lhsIdx i q 0).val = (i 0).val := by
  unfold DotDims.lhsIdx
  rw [dif_neg (show ¬(0 : Fin S64x1000.rank) ∈ dot_S64x1000_S1000x1024_S64x1024_1_0_0_1_n_n.lhsBatch by decide), dif_pos (show (0 : Fin S64x1000.rank) ∈ dot_S64x1000_S1000x1024_S64x1024_1_0_0_1_n_n.lhsNonContracting by decide)]
  rfl
/-- column `q`; -/
theorem lhsU_1 (i : S64x1024.Idx) (q : dot_S64x1000_S1000x1024_S64x1024_1_0_0_1_n_n.contr.Idx) :
    (dot_S64x1000_S1000x1024_S64x1024_1_0_0_1_n_n.lhsIdx i q 1).val = (q ⟨0, by decide⟩).val :=
  dot_S64x1000_S1000x1024_S64x1024_1_0_0_1_n_n.lhsIdx_val_of_single rfl i q
/-- the right operand at row `q`, -/
theorem rhsU_0 (i : S64x1024.Idx) (q : dot_S64x1000_S1000x1024_S64x1024_1_0_0_1_n_n.contr.Idx) :
    (dot_S64x1000_S1000x1024_S64x1024_1_0_0_1_n_n.rhsIdx i q 0).val = (q ⟨0, by decide⟩).val :=
  dot_S64x1000_S1000x1024_S64x1024_1_0_0_1_n_n.rhsIdx_val_of_single rfl i q
/-- column `i 1`. -/
theorem rhsU_1 (i : S64x1024.Idx) (q : dot_S64x1000_S1000x1024_S64x1024_1_0_0_1_n_n.contr.Idx) :
    (dot_S64x1000_S1000x1024_S64x1024_1_0_0_1_n_n.rhsIdx i q 1).val = (i 1).val := by
  unfold DotDims.rhsIdx
  rw [dif_neg (show ¬(1 : Fin S1000x1024.rank) ∈ dot_S64x1000_S1000x1024_S64x1024_1_0_0_1_n_n.rhsBatch by decide), dif_pos (show (1 : Fin S1000x1024.rank) ∈ dot_S64x1000_S1000x1024_S64x1024_1_0_0_1_n_n.rhsNonContracting by decide)]
  rfl

/-- What the body stores for the user tower: the product of the table block `e` ([64, 1000]) with the feature block `u`
    ([1000, 1024]) into a zero accumulator; at entry (p, q) it is `∑ k, e (p, k) · u (k, q)` (the shape casts of the
    two loaded blocks are casts of a shape to itself, and the zero accumulator adds nothing). -/
theorem k0_pay1_apply (e : Vec Ideal S64x1000 .f32) (u : Vec Ideal S1000x1024 .f32) (p : Fin 64) (q : Fin 1024) :
    k0_pay1 (F := Ideal) e u (ix2 p q) = ∑ k : Fin 1000, e (ix2 p k) * u (ix2 k q) := by
  unfold k0_pay1
  simp only [matmul, shapeCast_self]
  rw [Ideal.matmul_constant_zero_apply, ← Equiv.sum_comp (contrEquiv1 dot_S64x1000_S1000x1024_S64x1024_1_0_0_1_n_n 1000 rfl rfl).symm]
  refine Finset.sum_congr rfl fun k _ => ?_
  have hk := contrEquiv1_symm_val dot_S64x1000_S1000x1024_S64x1024_1_0_0_1_n_n 1000 rfl rfl k
  have el : dot_S64x1000_S1000x1024_S64x1024_1_0_0_1_n_n.lhsIdx (ix2 p q) ((contrEquiv1 dot_S64x1000_S1000x1024_S64x1024_1_0_0_1_n_n 1000 rfl rfl).symm k) = ix2 p k := funext fun a => Fin.ext (by
    match a with
    | ⟨0, _⟩ => exact lhsU_0 _ _
    | ⟨1, _⟩ => exact (lhsU_1 _ _).trans hk)
  have er : dot_S64x1000_S1000x1024_S64x1024_1_0_0_1_n_n.rhsIdx (ix2 p q) ((contrEquiv1 dot_S64x1000_S1000x1024_S64x1024_1_0_0_1_n_n 1000 rfl rfl).symm k) = ix2 k q := funext fun a => Fin.ext (by
    match a with
    | ⟨0, _⟩ => exact (rhsU_0 _ _).trans hk
    | ⟨1, _⟩ => exact rhsU_1 _ _)
  rw [el, er]

/-! ## The item tower block product (block width 256) -/

/-- Operand coordinates of the block product at output entry `i` and contraction index `q`: the left operand is read at
    row `i 0`, -/
theorem lhsV_0 (i : S64x256.Idx) (q : dot_S64x1000_S1000x256_S64x256_1_0_0_1_n_n.contr.Idx) :
    (dot_S64x1000_S1000x256_S64x256_1_0_0_1_n_n.lhsIdx i q 0).val = (i 0).val := by
  unfold DotDims.lhsIdx
  rw [dif_neg (show ¬(0 : Fin S64x1000.rank) ∈ dot_S64x1000_S1000x256_S64x256_1_0_0_1_n_n.lhsBatch by decide), dif_pos (show (0 : Fin S64x1000.rank) ∈ dot_S64x1000_S1000x256_S64x256_1_0_0_1_n_n.lhsNonContracting by decide)]
  rfl
/-- column `q`; -/
theorem lhsV_1 (i : S64x256.Idx) (q : dot_S64x1000_S1000x256_S64x256_1_0_0_1_n_n.contr.Idx) :
    (dot_S64x1000_S1000x256_S64x256_1_0_0_1_n_n.lhsIdx i q 1).val = (q ⟨0, by decide⟩).val :=
  dot_S64x1000_S1000x256_S64x256_1_0_0_1_n_n.lhsIdx_val_of_single rfl i q
/-- the right operand at row `q`, -/
theorem rhsV_0 (i : S64x256.Idx) (q : dot_S64x1000_S1000x256_S64x256_1_0_0_1_n_n.contr.Idx) :
    (dot_S64x1000_S1000x256_S64x256_1_0_0_1_n_n.rhsIdx i q 0).val = (q ⟨0, by decide⟩).val :=
  dot_S64x1000_S1000x256_S64x256_1_0_0_1_n_n.rhsIdx_val_of_single rfl i q
/-- column `i 1`. -/
theorem rhsV_1 (i : S64x256.Idx) (q : dot_S64x1000_S1000x256_S64x256_1_0_0_1_n_n.contr.Idx) :
    (dot_S64x1000_S1000x256_S64x256_1_0_0_1_n_n.rhsIdx i q 1).val = (i 1).val := by
  unfold DotDims.rhsIdx
  rw [dif_neg (show ¬(1 : Fin S1000x256.rank) ∈ dot_S64x1000_S1000x256_S64x256_1_0_0_1_n_n.rhsBatch by decide), dif_pos (show (1 : Fin S1000x256.rank) ∈ dot_S64x1000_S1000x256_S64x256_1_0_0_1_n_n.rhsNonContracting by decide)]
  rfl

/-- What the body stores for the item tower: the product of the table block `e` ([64, 1000]) with the feature block `u`
    ([1000, 256]) into a zero accumulator; at entry (p, q) it is `∑ k, e (p, k) · u (k, q)` (the shape casts of the
    two loaded blocks are casts of a shape to itself, and the zero accumulator adds nothing). -/
theorem k0_pay2_apply (e : Vec Ideal S64x1000 .f32) (u : Vec Ideal S1000x256 .f32) (p : Fin 64) (q : Fin 256) :
    k0_pay2 (F := Ideal) e u (ix2 p q) = ∑ k : Fin 1000, e (ix2 p k) * u (ix2 k q) := by
  unfold k0_pay2
  simp only [matmul, shapeCast_self]
  rw [Ideal.matmul_constant_zero_apply, ← Equiv.sum_comp (contrEquiv1 dot_S64x1000_S1000x256_S64x256_1_0_0_1_n_n 1000 rfl rfl).symm]
  refine Finset.sum_congr rfl fun k _ => ?_
  have hk := contrEquiv1_symm_val dot_S64x1000_S1000x256_S64x256_1_0_0_1_n_n 1000 rfl rfl k
  have el : dot_S64x1000_S1000x256_S64x256_1_0_0_1_n_n.lhsIdx (ix2 p q) ((contrEquiv1 dot_S64x1000_S1000x256_S64x256_1_0_0_1_n_n 1000 rfl rfl).symm k) = ix2 p k := funext fun a => Fin.ext (by
    match a with
    | ⟨0, _⟩ => exact lhsV_0 _ _
    | ⟨1, _⟩ => exact (lhsV_1 _ _).trans hk)
  have er : dot_S64x1000_S1000x256_S64x256_1_0_0_1_n_n.rhsIdx (ix2 p q) ((contrEquiv1 dot_S64x1000_S1000x256_S64x256_1_0_0_1_n_n 1000 rfl rfl).symm k) = ix2 k q := funext fun a => Fin.ext (by
    match a with
    | ⟨0, _⟩ => exact (rhsV_0 _ _).trans hk
    | ⟨1, _⟩ => exact rhsV_1 _ _)
  rw [el, er]

end Cert.KernelIdeal.Hand

end
-- ==== Proof.RegionArrays.lean ====
/-
  What the region leaves in its two output arrays, at the ideal instance.

  The grid has sixteen points.  At point `t` the body reads the whole transposed user table, columns
  `1024·t … 1024·t + 1023` of the transposed user features, the whole transposed item table and columns
  `256·t … 256·t + 255` of the transposed item features, and writes back the two block products to the same columns of
  the two outputs.  The blocks tile the outputs, so after the region each output holds, whole, the transposed product
  `embedT` of its table and features as the region finds them.
-/
import proofs.«108948_g71116068487735_cont_9to1_m_1387_15_alg».proof.Proof.Gen.KernelIdeal.Frame
import proofs.«108948_g71116068487735_cont_9to1_m_1387_15_alg».proof.Proof.TransposedProduct
import proofs.«108948_g71116068487735_cont_9to1_m_1387_15_alg».proof.Proof.BlockProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Tower

variable (m : (ℓ : Loc nD τ sig) → Buf (Elt Ideal) ℓ)

theorem hz : (![0, 0] : Fin 2 → Nat) = fun _ => 0 := funext fun a => by fin_cases a <;> rfl

/-- The printed index maps over the grid: the two tables' block index is (0, 0) at every point; the features' and the
    outputs' is (0, t) at point `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## The user tower: output window 4 -/

/-- The table's one block, at every point, is the whole transposed table. -/
theorem tableU_apply (c : Dev nD) (t : Fin cfg0.N) (p : Fin 64) (k : Fin 1000) :
    (iblk m c 0 t : Vec Ideal S64x1000 .f32) (ix2 p k) = (V m c main_v2 : Vec Ideal S64x1000 .f32) (ix2 p k) := by
  obtain ⟨a0, a1, b0, b1, -⟩ := idx_facts t
  show V m c main_v2 (((cfg0.win 0).blk t).view.emb (ix2 p k)) = V m c main_v2 (ix2 p k)
  refine congrArg (V m c main_v2) (funext fun a => Fin.ext ?_)
  match a with
  | ⟨0, _⟩ => show win0_0.index t (0 : Fin 2) * 64 + 1 * p.val = p.val; omega
  | ⟨1, _⟩ => show win0_0.index t (1 : Fin 2) * 1000 + 1 * k.val = k.val; omega

/-- The features' block at point `t` is columns `1024·t … 1024·t + 1023` of the transposed features. -/
theorem featU_apply (c : Dev nD) (t : Fin cfg0.N) (k : Fin 1000) (q : Fin 1024) (r : Fin 16384)
    (hr : r.val = t.val * 1024 + q.val) :
    (iblk m c 2 t : Vec Ideal S1000x1024 .f32) (ix2 k q) = (V m c main_v0 : Vec Ideal S1000x16384 .f32) (ix2 k r) := by
  obtain ⟨-, -, -, -, u0, u1, v0, v1, -⟩ := idx_facts t
  show V m c main_v0 (((cfg0.win 2).blk t).view.emb (ix2 k q)) = V m c main_v0 (ix2 k r)
  refine congrArg (V m c main_v0) (funext fun a => Fin.ext ?_)
  match a with
  | ⟨0, _⟩ => show win0_2.index t (0 : Fin 2) * 1000 + 1 * k.val = k.val; omega
  | ⟨1, _⟩ => show win0_2.index t (1 : Fin 2) * 1024 + 1 * q.val = r.val; omega

/-- What point `t` writes back is block `t` (columns `1024·t …`) of the transposed product of the transposed table and the
    transposed features as the region finds them. -/
theorem flushedU_eq (c : Dev nD) (t : Fin cfg0.N) :
    (dats m 0 c).flushed 4 t
      = ((cfg0.win 4).blk t).view.read (Elt Ideal) (embedT (n := 16384) (V m c main_v2) (V m c main_v0)) := by
  show (cfg0.win 4).cut (grid0.coords t) ((dats m 0 c).after 4 t) = _
  rw [after0_4]
  unfold out0_4
  rw [View.canon_unit_zero hz]
  simp only [View.ld_unit_zero (S := S64x1000) hz, View.ld_unit_zero (S := S1000x1024) hz]
  obtain ⟨-, -, -, -, -, -, -, -, p0, p1, q0, q1⟩ := idx_facts t
  have ht : t.val < 16 := lt_of_lt_of_eq t.isLt N_0
  funext j
  obtain ⟨p, q, rfl⟩ : ∃ (p : Fin 64) (q : Fin 1024), j = ix2 p q := ⟨j 0, j 1, eq_ix2 j⟩
  obtain ⟨r, hr⟩ : ∃ r : Fin 16384, r.val = t.val * 1024 + q.val := ⟨⟨t.val * 1024 + q.val, by omega⟩, rfl⟩
  have hemb : ((cfg0.win 4).blk t).view.emb (ix2 p q) = ix2 p r :=
    funext fun a => Fin.ext (by
      match a with
      | ⟨0, _⟩ => show win0_4.index t (0 : Fin 2) * 64 + 1 * p.val = p.val; omega
      | ⟨1, _⟩ => show win0_4.index t (1 : Fin 2) * 1024 + 1 * q.val = r.val; omega)
  show k0_pay1 (iblk m c 0 t) (iblk m c 2 t) (ix2 p q)
    = embedT (n := 16384) (V m c main_v2) (V m c main_v0) (((cfg0.win 4).blk t).view.emb (ix2 p q))
  rw [hemb]
  refine (k0_pay1_apply (iblk m c 0 t) (iblk m c 2 t) p q).trans ?_
  unfold embedT
  refine Finset.sum_congr rfl fun k _ => ?_
  rw [tableU_apply m c t p k, featU_apply m c t k q r hr]

/-- An index of the output array is in point `t`'s block iff each coordinate is in the block's range on its axis. -/
theorem mem_blkU (t : Fin cfg0.N) (i : S64x16384.Idx) :
    i ∈ ((cfg0.win 4).blk t).view.set ↔ ∀ a : Fin 2, win0_4.index t a * S64x1024.size a ≤ (i a).val ∧ (i a).val < win0_4.index t a * S64x1024.size a + S64x1024.size a := by
  show i ∈ ((View.whole main_v4_0).slice (win0_4.rect t)).set ↔ _
  rw [View.set_slice_whole, Rect.mem_set_unit]
  exact Iff.rfl

/-- The sixteen blocks of 1024 columns tile the 16384 columns: column `r` lies in the block of point `r / 1024`. -/
theorem coverU (i : S64x16384.Idx) :
    ∃ t : Fin cfg0.N, (cfg0.win 4).flush t = true ∧ i ∈ ((cfg0.win 4).blk t).view.set := by
  have hi0 : (i 0).val < 64 := (i 0).isLt
  have hi1 : (i 1).val < 16384 := (i 1).isLt
  obtain ⟨t, ht⟩ : ∃ t : Fin cfg0.N, t.val = (i 1).val / 1024 :=
    ⟨⟨(i 1).val / 1024, by rw [show cfg0.N = 16 from N_0]; omega⟩, rfl⟩
  obtain ⟨-, -, -, -, -, -, -, -, p0, p1, q0, q1⟩ := idx_facts t
  refine ⟨t, flush0_4 t, ?_⟩
  rw [mem_blkU]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 1024 ≤ (i 1).val ∧ (i 1).val < win0_4.index t (1 : Fin 2) * 1024 + 1024; omega

/-- The output array after the region: the transposed product, whole. -/
theorem finalU (c : Dev nD) :
    (dats m 0 c).arrAt 4 cfg0.N = embedT (n := 16384) (V m c main_v2) (V m c main_v0) :=
  (dats m 0 c).arrAt_eq_of_cover 4 _ (fun t _ => flushedU_eq m c t) coverU

/-! ## The item tower: output window 5 -/

/-- The table's one block, at every point, is the whole transposed table. -/
theorem tableV_apply (c : Dev nD) (t : Fin cfg0.N) (p : Fin 64) (k : Fin 1000) :
    (iblk m c 1 t : Vec Ideal S64x1000 .f32) (ix2 p k) = (V m c main_v3 : Vec Ideal S64x1000 .f32) (ix2 p k) := by
  obtain ⟨a0, a1, b0, b1, -⟩ := idx_facts t
  show V m c main_v3 (((cfg0.win 1).blk t).view.emb (ix2 p k)) = V m c main_v3 (ix2 p k)
  refine congrArg (V m c main_v3) (funext fun a => Fin.ext ?_)
  match a with
  | ⟨0, _⟩ => show win0_1.index t (0 : Fin 2) * 64 + 1 * p.val = p.val; omega
  | ⟨1, _⟩ => show win0_1.index t (1 : Fin 2) * 1000 + 1 * k.val = k.val; omega

/-- The features' block at point `t` is columns `256·t … 256·t + 255` of the transposed features. -/
theorem featV_apply (c : Dev nD) (t : Fin cfg0.N) (k : Fin 1000) (q : Fin 256) (r : Fin 4096)
    (hr : r.val = t.val * 256 + q.val) :
    (iblk m c 3 t : Vec Ideal S1000x256 .f32) (ix2 k q) = (V m c main_v1 : Vec Ideal S1000x4096 .f32) (ix2 k r) := by
  obtain ⟨-, -, -, -, u0, u1, v0, v1, -⟩ := idx_facts t
  show V m c main_v1 (((cfg0.win 3).blk t).view.emb (ix2 k q)) = V m c main_v1 (ix2 k r)
  refine congrArg (V m c main_v1) (funext fun a => Fin.ext ?_)
  match a with
  | ⟨0, _⟩ => show win0_3.index t (0 : Fin 2) * 1000 + 1 * k.val = k.val; omega
  | ⟨1, _⟩ => show win0_3.index t (1 : Fin 2) * 256 + 1 * q.val = r.val; omega

/-- What point `t` writes back is block `t` (columns `256·t …`) of the transposed product of the transposed table and the
    transposed features as the region finds them. -/
theorem flushedV_eq (c : Dev nD) (t : Fin cfg0.N) :
    (dats m 0 c).flushed 5 t
      = ((cfg0.win 5).blk t).view.read (Elt Ideal) (embedT (n := 4096) (V m c main_v3) (V m c main_v1)) := by
  show (cfg0.win 5).cut (grid0.coords t) ((dats m 0 c).after 5 t) = _
  rw [after0_5]
  unfold out0_5
  rw [View.canon_unit_zero hz]
  simp only [View.ld_unit_zero (S := S64x1000) hz, View.ld_unit_zero (S := S1000x256) hz]
  obtain ⟨-, -, -, -, -, -, -, -, p0, p1, q0, q1⟩ := idx_facts t
  have ht : t.val < 16 := lt_of_lt_of_eq t.isLt N_0
  funext j
  obtain ⟨p, q, rfl⟩ : ∃ (p : Fin 64) (q : Fin 256), j = ix2 p q := ⟨j 0, j 1, eq_ix2 j⟩
  obtain ⟨r, hr⟩ : ∃ r : Fin 4096, r.val = t.val * 256 + q.val := ⟨⟨t.val * 256 + q.val, by omega⟩, rfl⟩
  have hemb : ((cfg0.win 5).blk t).view.emb (ix2 p q) = ix2 p r :=
    funext fun a => Fin.ext (by
      match a with
      | ⟨0, _⟩ => show win0_5.index t (0 : Fin 2) * 64 + 1 * p.val = p.val; omega
      | ⟨1, _⟩ => show win0_5.index t (1 : Fin 2) * 256 + 1 * q.val = r.val; omega)
  show k0_pay2 (iblk m c 1 t) (iblk m c 3 t) (ix2 p q)
    = embedT (n := 4096) (V m c main_v3) (V m c main_v1) (((cfg0.win 5).blk t).view.emb (ix2 p q))
  rw [hemb]
  refine (k0_pay2_apply (iblk m c 1 t) (iblk m c 3 t) p q).trans ?_
  unfold embedT
  refine Finset.sum_congr rfl fun k _ => ?_
  rw [tableV_apply m c t p k, featV_apply m c t k q r hr]

/-- An index of the output array is in point `t`'s block iff each coordinate is in the block's range on its axis. -/
theorem mem_blkV (t : Fin cfg0.N) (i : S64x4096.Idx) :
    i ∈ ((cfg0.win 5).blk t).view.set ↔ ∀ a : Fin 2, win0_5.index t a * S64x256.size a ≤ (i a).val ∧ (i a).val < win0_5.index t a * S64x256.size a + S64x256.size a := by
  show i ∈ ((View.whole main_v4_1).slice (win0_5.rect t)).set ↔ _
  rw [View.set_slice_whole, Rect.mem_set_unit]
  exact Iff.rfl

/-- The sixteen blocks of 256 columns tile the 4096 columns: column `r` lies in the block of point `r / 256`. -/
theorem coverV (i : S64x4096.Idx) :
    ∃ t : Fin cfg0.N, (cfg0.win 5).flush t = true ∧ i ∈ ((cfg0.win 5).blk t).view.set := by
  have hi0 : (i 0).val < 64 := (i 0).isLt
  have hi1 : (i 1).val < 4096 := (i 1).isLt
  obtain ⟨t, ht⟩ : ∃ t : Fin cfg0.N, t.val = (i 1).val / 256 :=
    ⟨⟨(i 1).val / 256, by rw [show cfg0.N = 16 from N_0]; omega⟩, rfl⟩
  obtain ⟨-, -, -, -, -, -, -, -, p0, p1, q0, q1⟩ := idx_facts t
  refine ⟨t, flush0_5 t, ?_⟩
  rw [mem_blkV]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 256 ≤ (i 1).val ∧ (i 1).val < win0_5.index t (1 : Fin 2) * 256 + 256; omega

/-- The output array after the region: the transposed product, whole. -/
theorem finalV (c : Dev nD) :
    (dats m 0 c).arrAt 5 cfg0.N = embedT (n := 4096) (V m c main_v3) (V m c main_v1) :=
  (dats m 0 c).arrAt_eq_of_cover 5 _ (fun t _ => flushedV_eq m c t) coverV

end Cert.KernelIdeal.Hand

end
-- ==== Proof.HostSides.lean ====
/-
  The kernel's whole program at the ideal instance: the host's transposes before the region, the region, the host's
  transposes after it.

  Before the region the host transposes the four arguments: the user features ([16384, 1000] to [1000, 16384]), the item
  features ([4096, 1000] to [1000, 4096]) and the two tables ([1000, 64] to [64, 1000]).  The region leaves in its outputs the
  transposed products of those (`finalU`, `finalV`).  After the region the host transposes the two outputs back
  ([64, 16384] to [16384, 64], [64, 4096] to [4096, 64]).  So each result is `(eᵀ · xᵀ)ᵀ`, which is `x · e`
  (`Cert.Tower.transpose_embedT`).
-/
import proofs.«108948_g71116068487735_cont_9to1_m_1387_15_alg».proof.Proof.Gen.KernelIdeal.Frame
import proofs.«108948_g71116068487735_cont_9to1_m_1387_15_alg».proof.Proof.TransposedProduct
import proofs.«108948_g71116068487735_cont_9to1_m_1387_15_alg».proof.Proof.RegionArrays
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.Tower

variable (m : (ℓ : Loc nD τ sig) → Buf (Elt Ideal) ℓ) (ρ : Dev nD → PrngReg)

/-! ## Before the region -/

/-- The region finds the user features transposed. -/
theorem V_featU (c : Dev nD) :
    (V m c main_v0 : Vec Ideal S1000x16384 .f32)
      = transpose S1000x16384 [1, 0] (m ((c : Thread nD τ).loc main_arg0)) transposes_S16384x1000_S1000x16384_1_0 := by
  show StableHlo.after hostOps0 (fun b => m (c, b)) (Proc.devRef .tc main_v0) = _
  after_results

/-- The region finds the item features transposed. -/
theorem V_featV (c : Dev nD) :
    (V m c main_v1 : Vec Ideal S1000x4096 .f32)
      = transpose S1000x4096 [1, 0] (m ((c : Thread nD τ).loc main_arg1)) transposes_S4096x1000_S1000x4096_1_0 := by
  show StableHlo.after hostOps0 (fun b => m (c, b)) (Proc.devRef .tc main_v1) = _
  after_results

/-- The region finds the user table transposed. -/
theorem V_tableU (c : Dev nD) :
    (V m c main_v2 : Vec Ideal S64x1000 .f32)
      = transpose S64x1000 [1, 0] (m ((c : Thread nD τ).loc main_arg2)) transposes_S1000x64_S64x1000_1_0 := by
  show StableHlo.after hostOps0 (fun b => m (c, b)) (Proc.devRef .tc main_v2) = _
  after_results

/-- The region finds the item table transposed. -/
theorem V_tableV (c : Dev nD) :
    (V m c main_v3 : Vec Ideal S64x1000 .f32)
      = transpose S64x1000 [1, 0] (m ((c : Thread nD τ).loc main_arg3)) transposes_S1000x64_S64x1000_1_0 := by
  show StableHlo.after hostOps0 (fun b => m (c, b)) (Proc.devRef .tc main_v3) = _
  after_results

/-! ## After the region -/

/-- The user result is the region's output array 0, transposed back by the host. -/
theorem tailU (c : Dev nD) :
    Pipeline.afterTail₀ cfgs (dats m) 0 (V0 m) [hostOps1] c main_v5
      = transpose S16384x64 [1, 0] ((dats m 0 c).arrAt 4 cfg0.N) transposes_S64x16384_S16384x64_1_0 := by
  unfold Pipeline.afterTail₀
  show StableHlo.after hostOps1 _ (Proc.devRef .tc main_v5) = _
  after_results
  exact congrArg (fun x => transpose S16384x64 [1, 0] x transposes_S64x16384_S16384x64_1_0)
    (Pipeline.withArrays_arr spec0 launch0.win.arr_inj c _ _ 4)

/-- The user result as a function of the arguments: the features times the table. -/
theorem resultU (c : Dev nD) :
    Pipeline.afterTail₀ cfgs (dats m) 0 (V0 m) [hostOps1] c main_v5
      = embed (n := 16384) (m ((c : Thread nD τ).loc main_arg0)) (m ((c : Thread nD τ).loc main_arg2)) := by
  rw [tailU, finalU, V_tableU, V_featU]
  exact transpose_embedT _ _ _ _ _

/-- The item result is the region's output array 1, transposed back by the host. -/
theorem tailV (c : Dev nD) :
    Pipeline.afterTail₀ cfgs (dats m) 0 (V0 m) [hostOps1] c main_v6
      = transpose S4096x64 [1, 0] ((dats m 0 c).arrAt 5 cfg0.N) transposes_S64x4096_S4096x64_1_0 := by
  unfold Pipeline.afterTail₀
  show StableHlo.after hostOps1 _ (Proc.devRef .tc main_v6) = _
  after_results
  exact congrArg (fun x => transpose S4096x64 [1, 0] x transposes_S64x4096_S4096x64_1_0)
    (Pipeline.withArrays_arr spec0 launch0.win.arr_inj c _ _ 5)

/-- The item result as a function of the arguments: the features times the table. -/
theorem resultV (c : Dev nD) :
    Pipeline.afterTail₀ cfgs (dats m) 0 (V0 m) [hostOps1] c main_v6
      = embed (n := 4096) (m ((c : Thread nD τ).loc main_arg1)) (m ((c : Thread nD τ).loc main_arg3)) := by
  rw [tailV, finalV, V_tableV, V_featV]
  exact transpose_embedT _ _ _ _ _

/-! ## The run -/

/-- Every weakly fair execution of the kernel's program terminates with the two results at the two products of the
    arguments and the arguments unchanged. -/
theorem run : θ_run defs (onTc (τ := τ) (main (F := Ideal))) ⟨m, fun _ => 0, ρ⟩ fun r => ∀ c : Dev nD,
      r.2.mem ((c.tc : Thread nD τ).loc main_v5)
        = embed (n := 16384) (m ((c.tc : Thread nD τ).loc main_arg0)) (m ((c.tc : Thread nD τ).loc main_arg2))
      ∧ r.2.mem ((c.tc : Thread nD τ).loc main_v6)
        = embed (n := 4096) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (resultU m c),
       ((h c).2 main_v6 (Pipeline.mem_restRefs_of main_v6 (by decide) (by decide))).trans (resultV m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Hand

end
-- ==== Proof.ReferenceProduct.lean ====
/-
  The reference at the ideal instance: its two `dot_general`s, features ([n, 1000]) times table ([1000, 64]) contracted
  over the 1000 features, are the products `Cert.Tower.embed`, entry by entry.
-/
import proofs.«108948_g71116068487735_cont_9to1_m_1387_15_alg».proof.Proof.Gen.ReferenceIdeal.Read
import proofs.«108948_g71116068487735_cont_9to1_m_1387_15_alg».proof.Proof.TransposedProduct
import Idealize.ShloMosaic.Lib.ValueIdx

noncomputable section

open Idealize.ShloMosaic Idealize.ShloMosaic.ValueIdx

namespace Cert.ReferenceIdeal.Hand

open Cert.ReferenceIdeal Cert.ReferenceIdeal.Gen

/-- The reference's user product, entry by entry, is `embed` of its two operands. -/
theorem productU (x : FVec Ideal S16384x1000 .f32) (e : FVec Ideal S1000x64 .f32) :
    Host.dotGeneral (F := Ideal) dot_S16384x1000_S1000x64_S16384x64_1_0_0_1_n_n none x e = Cert.Tower.embed (n := 16384) x e := by
  rw [Read.val_main_v0_eq]
  funext i
  rw [Read.val_main_v0_apply]
  unfold Cert.Tower.embed
  refine Finset.sum_congr rfl fun k _ => ?_
  have el : Read.lidx_main_v0 i k = ix2 (i 0) k := funext fun a => Fin.ext (by
    match a with
    | ⟨0, _⟩ => rfl
    | ⟨1, _⟩ => rfl)
  have er : Read.ridx_main_v0 i k = ix2 k (i 1) := funext fun a => Fin.ext (by
    match a with
    | ⟨0, _⟩ => rfl
    | ⟨1, _⟩ => rfl)
  rw [el, er]
  rfl

/-- The reference's item product, entry by entry, is `embed` of its two operands. -/
theorem productV (x : FVec Ideal S4096x1000 .f32) (e : FVec Ideal S1000x64 .f32) :
    Host.dotGeneral (F := Ideal) dot_S4096x1000_S1000x64_S4096x64_1_0_0_1_n_n none x e = Cert.Tower.embed (n := 4096) x e := by
  rw [Read.val_main_v1_eq]
  funext i
  rw [Read.val_main_v1_apply]
  unfold Cert.Tower.embed
  refine Finset.sum_congr rfl fun k _ => ?_
  have el : Read.lidx_main_v1 i k = ix2 (i 0) k := funext fun a => Fin.ext (by
    match a with
    | ⟨0, _⟩ => rfl
    | ⟨1, _⟩ => rfl)
  have er : Read.ridx_main_v1 i k = ix2 k (i 1) := funext fun a => Fin.ext (by
    match a with
    | ⟨0, _⟩ => rfl
    | ⟨1, _⟩ => rfl)
  rw [el, er]
  rfl

end Cert.ReferenceIdeal.Hand

end
-- ==== Proof.lean ====
/-
  Two embedding towers: user features `U` ([16384, 1000]) times a user table `Eu` ([1000, 64]), and item features
  `V` ([4096, 1000]) times an item table `Ev` ([1000, 64]).

  The reference computes `U · Eu` and `V · Ev` as they stand.  The kernel transposes all four arguments, forms
  `Euᵀ · Uᵀ` and `Evᵀ · Vᵀ` in one grid of sixteen points — point `t` produces columns `1024·t …` of the first and
  columns `256·t …` of the second, each as one block product into a zero accumulator over all 1000 features — and
  transposes the two results back.

  At the ideal instance a float is an extended real and every operation exact, so entry (r, j) of the kernel's first result
  is `∑ k, Eu (k, j) · U (r, k)` and of the reference's `∑ k, U (r, k) · Eu (k, j)`: the same sum over the same index
  with the two factors of every term exchanged.  They agree by commutativity of the product alone, which holds on all
  extended reals; the finiteness of the inputs is not used.  The same for the second result.

  The modules: `Proof/TransposedProduct.lean` (the two products as functions of arrays, and the law),
  `Proof/BlockProduct.lean` (the body's block product at an index), `Proof/RegionArrays.lean` (the region's two output
  arrays, whole), `Proof/HostSides.lean` (the transposes around the region, and the kernel's run),
  `Proof/ReferenceProduct.lean` (the reference's two products).  The kernel's idealization rewrote no operation, so that
  conjunct is `True`.
-/
import proofs.«108948_g71116068487735_cont_9to1_m_1387_15_alg».proof.Defs
import proofs.«108948_g71116068487735_cont_9to1_m_1387_15_alg».proof.Proof.Gen.Kernel
import proofs.«108948_g71116068487735_cont_9to1_m_1387_15_alg».proof.Proof.Gen.Kernel.Skeleton
import proofs.«108948_g71116068487735_cont_9to1_m_1387_15_alg».proof.Proof.Gen.Kernel.Launch
import proofs.«108948_g71116068487735_cont_9to1_m_1387_15_alg».proof.Proof.Gen.Kernel.Points
import proofs.«108948_g71116068487735_cont_9to1_m_1387_15_alg».proof.Proof.Gen.Kernel.Frame
import proofs.«108948_g71116068487735_cont_9to1_m_1387_15_alg».proof.Proof.Gen.KernelIdeal
import proofs.«108948_g71116068487735_cont_9to1_m_1387_15_alg».proof.Proof.Gen.KernelIdeal.Skeleton
import proofs.«108948_g71116068487735_cont_9to1_m_1387_15_alg».proof.Proof.Gen.KernelIdeal.Launch
import proofs.«108948_g71116068487735_cont_9to1_m_1387_15_alg».proof.Proof.Gen.KernelIdeal.Points
import proofs.«108948_g71116068487735_cont_9to1_m_1387_15_alg».proof.Proof.Gen.KernelIdeal.Frame
import proofs.«108948_g71116068487735_cont_9to1_m_1387_15_alg».proof.Proof.Gen.ReferenceIdeal
import proofs.«108948_g71116068487735_cont_9to1_m_1387_15_alg».proof.Proof.Gen.Pre_finite_inputs
import proofs.«108948_g71116068487735_cont_9to1_m_1387_15_alg».proof.Proof.Gen.ReferenceIdeal.Run
import proofs.«108948_g71116068487735_cont_9to1_m_1387_15_alg».proof.Proof.Gen.ReferenceIdeal.Read
import proofs.«108948_g71116068487735_cont_9to1_m_1387_15_alg».proof.Proof.TransposedProduct
import proofs.«108948_g71116068487735_cont_9to1_m_1387_15_alg».proof.Proof.HostSides
import proofs.«108948_g71116068487735_cont_9to1_m_1387_15_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel at the ideal instance. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the two products `U · Eu` and `V · Ev`:
    the kernel by `(Euᵀ · Uᵀ)ᵀ = U · Eu`, the reference directly. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Value.run (F := Ideal) m' ρ')
  obtain ⟨h0, h1, h2, h3, h4, h5⟩ := h c
  obtain ⟨a0, a1, a2, a3⟩ := hagree c
  refine ⟨h0.trans ?_, h1.trans ?_, h2, h3, h4, h5⟩
  · rw [a0, a2]
    exact Cert.ReferenceIdeal.Hand.productU _ _
  · rw [a1, a3]
    exact Cert.ReferenceIdeal.Hand.productV _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
